-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_arg1 : IVec S2x600000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x600000 32 := (extractStridedSlice S1x600000 ![1, 0] · slices_S2x600000_S1x600000_1_0) main_arg1
  let main_v25 : IVec S600000 32 := shapeCast S600000 main_v24 shapeCasts_S1x600000_S600000
  let main_c_8 : IVec S_ 32 := constantI S_ 32 0#32
  let main_v26 : IVec S600000 32 := broadcastInDim S600000 ![] bcast_S_S600000 main_c_8
  let main_v27 : IVec S600000 1 := cmpi .sge main_v25 main_v26
  let main_c_9 : IVec S_ 1 := constantI S_ 1 1#1
  let main_v28 : IVec S_ 1 := (fun x v => Host.reduce IntOp.andi x v reducesTo_S600000_S_d0 h_S_) main_v27 main_c_9
  let main_v29 : IVec S_ 1 := andi main_v23 main_v28
  main_v29

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 45
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S50000x128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S_, .f32⟩
  | .hbm, ⟨33, _⟩ => ⟨S600000, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S50000, .f32⟩
  | .hbm, ⟨43, _⟩ => ⟨S50000x1, .f32⟩
  | .hbm, ⟨44, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S50000x128, .f32⟩
  | .hbm, ⟨21, _⟩ => ⟨S600000x1, .i32⟩
  | .hbm, ⟨22, _⟩ => ⟨S50000x128, .f32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S50000, .f32⟩
  | .hbm, ⟨27, _⟩ => ⟨S600000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One mean-aggregation layer, entry by entry.

  A node r has the sum S(r, ·) of the feature rows of its in-neighbours, its in-degree cnt(r) and its own
  feature row x(r, ·).  The layer divides the sum by max(cnt(r), 1), multiplies the mean by W_l and the node's
  own row by W_r, adds the two biases and cuts the result off below at zero:

      out(r, q) = max( ((∑_k S(r,k) / max(cnt(r), 1) · W_l(k,q) + b_l(q)) + ∑_k x(r,k) · W_r(k,q)) + b_r(q), 0 ).

  Everything is over the extended reals; the additions are kept in exactly this grouping, so no law of
  arithmetic is needed to compare two programs that both compute it.  The row count n is a parameter: the same
  formula describes a block of rows and the whole array.
-/
import Idealize.ShloMosaic.PureOps.Ideal
import Idealize.ShloMosaic.Lib.ValueIdx

noncomputable section

namespace SageMean

open Idealize.ShloMosaic Idealize.ShloMosaic.ValueIdx

/-- The single-precision words for 1 and 0, read as extended reals. -/
abbrev one : EReal := Ideal.ofBits .f32 0x3F800000#32
abbrev zero : EReal := Ideal.ofBits .f32 0x00000000#32

/-- Entry (r, q) of the layer's output, from the neighbour sums S, the in-degrees cnt, the features x, the two
    weight matrices and the two biases. -/
def entry {n : ℕ} (S : (⟨2, ![n, 128]⟩ : Shape).Idx → EReal) (cnt : Fin n → EReal)
    (x : (⟨2, ![n, 128]⟩ : Shape).Idx → EReal)
    (Wl : (⟨2, ![128, 128]⟩ : Shape).Idx → EReal) (bl : (⟨1, ![128]⟩ : Shape).Idx → EReal)
    (Wr : (⟨2, ![128, 128]⟩ : Shape).Idx → EReal) (br : (⟨1, ![128]⟩ : Shape).Idx → EReal)
    (r : Fin n) (q : Fin 128) : EReal :=
  max ((((∑ k : Fin 128, Ideal.div (S (ix2 r k)) (max (cnt r) one) * Wl (ix2 k q)) + bl (ix1 q))
    + ∑ k : Fin 128, x (ix2 r k) * Wr (ix2 k q)) + br (ix1 q)) zero

/-- The entry depends only on row r of S and x, on cnt(r), on column q of the weights and on entry q of the
    biases: two sets of data that agree there give the same entry, also when the row and the column are named
    differently on the two sides (a row of a block and the same row of the whole array). -/
theorem entry_congr {n n' : ℕ}
    {S : (⟨2, ![n, 128]⟩ : Shape).Idx → EReal} {cnt : Fin n → EReal} {x : (⟨2, ![n, 128]⟩ : Shape).Idx → EReal}
    {Wl Wr : (⟨2, ![128, 128]⟩ : Shape).Idx → EReal} {bl br : (⟨1, ![128]⟩ : Shape).Idx → EReal}
    {S' : (⟨2, ![n', 128]⟩ : Shape).Idx → EReal} {cnt' : Fin n' → EReal} {x' : (⟨2, ![n', 128]⟩ : Shape).Idx → EReal}
    {Wl' Wr' : (⟨2, ![128, 128]⟩ : Shape).Idx → EReal} {bl' br' : (⟨1, ![128]⟩ : Shape).Idx → EReal}
    {r : Fin n} {r' : Fin n'} {q q' : Fin 128}
    (hS : ∀ k, S (ix2 r k) = S' (ix2 r' k)) (hc : cnt r = cnt' r') (hx : ∀ k, x (ix2 r k) = x' (ix2 r' k))
    (hWl : ∀ k, Wl (ix2 k q) = Wl' (ix2 k q')) (hbl : bl (ix1 q) = bl' (ix1 q'))
    (hWr : ∀ k, Wr (ix2 k q) = Wr' (ix2 k q')) (hbr : br (ix1 q) = br' (ix1 q')) :
    entry S cnt x Wl bl Wr br r q = entry S' cnt' x' Wl' bl' Wr' br' r' q' := by
  unfold entry
  simp only [hS, hc, hx, hWl, hbl, hWr, hbr]

/-- The layer's whole output over n nodes. -/
def layer {n : ℕ} (S : (⟨2, ![n, 128]⟩ : Shape).Idx → EReal) (cnt : Fin n → EReal)
    (x : (⟨2, ![n, 128]⟩ : Shape).Idx → EReal)
    (Wl : (⟨2, ![128, 128]⟩ : Shape).Idx → EReal) (bl : (⟨1, ![128]⟩ : Shape).Idx → EReal)
    (Wr : (⟨2, ![128, 128]⟩ : Shape).Idx → EReal) (br : (⟨1, ![128]⟩ : Shape).Idx → EReal) :
    (⟨2, ![n, 128]⟩ : Shape).Idx → EReal :=
  fun i => entry S cnt x Wl bl Wr br (i 0) (i 1)

end SageMean

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.BodyAt.lean ====
/-
  What the kernel body computes for one block of rows.

  The body receives a block of 5000 rows of the neighbour sums, the matching column of in-degrees, the matching
  rows of the features, and the whole weight matrices and biases.  It divides each sum row by max(degree, 1),
  multiplies by W_l with the matrix unit (the narrowing of the operands to half precision changes nothing on the
  extended reals, and the accumulator is the zero array, so the product is the plain sum over the 128 contracted
  positions), does the same for the feature rows and W_r, adds the biases (each a row vector spread over the
  5000 rows) and takes the maximum with zero.  Read at row p and column q that is the layer's entry (p, q) on
  the block's data.
-/
import proofs.«160981_j41807211659455_2_alg».proof.Proof.Gen.KernelIdeal.Skeleton
import proofs.«160981_j41807211659455_2_alg».proof.Proof.Layer
import proofs.«160981_j41807211659455_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The matrix product read at an entry -/

/-- The left operand of the product is read at the output's row and the contracted position. -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_contr (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand is read at the contracted position and the output's column. -/
theorem rhs_contr (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000, 128] block times a [128, 128] matrix into the zero accumulator is, at (p, q), the sum over k of
    the block's (p, k) times the matrix's (k, q). -/
theorem matmul_at (a : FVec Ideal S5000x128 .bf16) (b : FVec Ideal S128x128 .bf16) (p : Fin 5000) (q : Fin 128) :
    matmul (F := Ideal) dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact lhs_row _ _
      | ⟨1, _⟩ => exact (lhs_contr _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (rhs_contr _ _).trans hk
      | ⟨1, _⟩ => exact rhs_col _ _)
  rw [el, er]

/-! ## The body's stored value read at an entry -/

/-- The value the body stores, at row p and column q of the block, is the layer's entry (p, q) on the block's
    rows of sums, degrees (the [5000, 1] column read at (·, 0)) and features. -/
theorem stored_at (v0 : Vec Ideal S5000x1 .f32) (v4 : Vec Ideal S5000x128 .f32) (v9 : Vec Ideal S128x128 .f32)
    (v12 : Vec Ideal S5000x128 .f32) (v14 : Vec Ideal S128x128 .f32) (v17 v22 : Vec Ideal S128 .f32)
    (p : Fin 5000) (q : Fin 128) :
    k0_pay1 (F := Ideal) v0 v4 v9 v12 v14 v17 v22 (ix2 p q)
      = SageMean.entry v4 (fun r => v0 (ix2 r (0 : Fin 1))) v12 v9 v17 v14 v22 p q := by
  unfold k0_pay1 SageMean.entry
  simp only [maximumf_apply, addf_apply, matmul_at, truncf_apply, divf_apply, shapeCast_self, broadcast_apply,
    Keepdims.broadcastTo_a1_ab_apply, broadcastTo_1b_ab_apply, shapeCast_a_1a_apply]
  rfl

/-- The same at an index j of the block not yet split into its row and column. -/
theorem stored_apply (v0 : Vec Ideal S5000x1 .f32) (v4 : Vec Ideal S5000x128 .f32) (v9 : Vec Ideal S128x128 .f32)
    (v12 : Vec Ideal S5000x128 .f32) (v14 : Vec Ideal S128x128 .f32) (v17 v22 : Vec Ideal S128 .f32)
    (j : S5000x128.Idx) :
    k0_pay1 (F := Ideal) v0 v4 v9 v12 v14 v17 v22 j
      = SageMean.entry v4 (fun r => v0 (ix2 r (0 : Fin 1))) v12 v9 v17 v14 v22 (j 0) (j 1) := by
  obtain ⟨p, q, rfl⟩ : ∃ (p : Fin 5000) (q : Fin 128), j = ix2 p q := ⟨j 0, j 1, eq_ix2 j⟩
  exact stored_at v0 v4 v9 v12 v14 v17 v22 p q

end Cert.KernelIdeal.Body

end
-- ==== Proof.Blocks.lean ====
/-
  From the blocks to the whole output array.

  The grid has ten points; point t works on rows 5000·t … 5000·t + 4999.  Its blocks of the neighbour sums, of
  the degree column and of the features are those rows of the three arrays, the weight matrices and the biases
  are taken whole at every point, and its output block is written back to the same rows of the result.  So
  what point t writes is the layer's output on the whole arrays, restricted to its rows; the ten row ranges
  cover the 50000 rows, hence after the run the result array is the layer's output on the arrays the kernel
  was launched on.
-/
import proofs.«160981_j41807211659455_2_alg».proof.Proof.Gen.KernelIdeal.Value
import proofs.«160981_j41807211659455_2_alg».proof.Proof.BodyAt
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The block index maps over the ten points: the three row-blocked inputs move with the output (block row
    t, block column 0); the weights and biases stay at block 0. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (1 : Fin 2) = 0 ∧ win0_7.index t (0 : Fin 2) ≤ 9 :=
  (by decide +kernel : ∀ t : Fin grid0.N, _)

/-- Every block row 0 … 9 of the output is some point's. -/
theorem idx_onto : ∀ q0 : Fin 10, ∃ t : Fin cfg0.N, win0_7.index t = ![q0.val, 0] :=
  (by decide +kernel : ∀ q0 : Fin 10, ∃ t : Fin grid0.N, win0_7.index t = ![q0.val, 0])

/-! ## Each window's block as entries of its array

Stated for an arbitrary array A in the window's place: which entries of A a block holds depends on the
window's index map only. -/

/-- A block of 5000 rows of a [50000, 128] array through window 0 (the neighbour sums' window): the block at
    point t, read at y, is the array at k when k is y moved down by the point's row offset. -/
theorem read0 (t : Fin cfg0.N) (A : S50000x128.Idx → EReal) (y : S5000x128.Idx) (k : S50000x128.Idx)
    (h0 : (k 0).val = win0_7.index t (0 : Fin 2) * 5000 + (y 0).val) (h1 : (k 1).val = (y 1).val) :
    (((cfg0.win 0).blk t).view.read (Elt Ideal) A : S5000x128.Idx → EReal) y = A k := by
  obtain ⟨e0, e1, -⟩ := idx_facts t
  show A (((cfg0.win 0).blk t).view.emb y) = A k
  refine congrArg A (funext fun a => Fin.ext ?_)
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- The same for a [50000, 1] column through window 1 (the degrees' window). -/
theorem read1 (t : Fin cfg0.N) (A : S50000x1.Idx → EReal) (y : S5000x1.Idx) (k : S50000x1.Idx)
    (h0 : (k 0).val = win0_7.index t (0 : Fin 2) * 5000 + (y 0).val) (h1 : (k 1).val = (y 1).val) :
    (((cfg0.win 1).blk t).view.read (Elt Ideal) A : S5000x1.Idx → EReal) y = A k := by
  obtain ⟨-, -, e0, e1, -⟩ := idx_facts t
  show A (((cfg0.win 1).blk t).view.emb y) = A k
  refine congrArg A (funext fun a => Fin.ext ?_)
  match a with
  | ⟨0, _⟩ => show win0_1.index t (0 : Fin 2) * 5000 + 1 * (y 0).val = (k 0).val; omega
  | ⟨1, _⟩ => show win0_1.index t (1 : Fin 2) * 1 + 1 * (y 1).val = (k 1).val; omega

/-- The same for a [50000, 128] array through window 2 (the features' window). -/
theorem read2 (t : Fin cfg0.N) (A : S50000x128.Idx → EReal) (y : S5000x128.Idx) (k : S50000x128.Idx)
    (h0 : (k 0).val = win0_7.index t (0 : Fin 2) * 5000 + (y 0).val) (h1 : (k 1).val = (y 1).val) :
    (((cfg0.win 2).blk t).view.read (Elt Ideal) A : S5000x128.Idx → EReal) y = A k := by
  obtain ⟨-, -, -, -, e0, e1, -⟩ := idx_facts t
  show A (((cfg0.win 2).blk t).view.emb y) = A k
  refine congrArg A (funext fun a => Fin.ext ?_)
  match a with
  | ⟨0, _⟩ => show win0_2.index t (0 : Fin 2) * 5000 + 1 * (y 0).val = (k 0).val; omega
  | ⟨1, _⟩ => show win0_2.index t (1 : Fin 2) * 128 + 1 * (y 1).val = (k 1).val; omega

/-- Window 3 (W_l's) takes its [128, 128] array whole at every point. -/
theorem read3 (t : Fin cfg0.N) (A : S128x128.Idx → EReal) (y : S128x128.Idx) (k : S128x128.Idx)
    (h0 : (k 0).val = (y 0).val) (h1 : (k 1).val = (y 1).val) :
    (((cfg0.win 3).blk t).view.read (Elt Ideal) A : S128x128.Idx → EReal) y = A k := by
  obtain ⟨-, -, -, -, -, -, e0, e1, -⟩ := idx_facts t
  show A (((cfg0.win 3).blk t).view.emb y) = A k
  refine congrArg A (funext fun a => Fin.ext ?_)
  match a with
  | ⟨0, _⟩ => show win0_3.index t (0 : Fin 2) * 128 + 1 * (y 0).val = (k 0).val; omega
  | ⟨1, _⟩ => show win0_3.index t (1 : Fin 2) * 128 + 1 * (y 1).val = (k 1).val; omega

/-- Window 4 (b_l's) takes its [128] array whole at every point. -/
theorem read4 (t : Fin cfg0.N) (A : S128.Idx → EReal) (y : S128.Idx) (k : S128.Idx)
    (h0 : (k 0).val = (y 0).val) :
    (((cfg0.win 4).blk t).view.read (Elt Ideal) A : S128.Idx → EReal) y = A k := by
  obtain ⟨-, -, -, -, -, -, -, -, e0, -⟩ := idx_facts t
  show A (((cfg0.win 4).blk t).view.emb y) = A k
  refine congrArg A (funext fun a => Fin.ext ?_)
  match a with
  | ⟨0, _⟩ => show win0_4.index t (0 : Fin 1) * 128 + 1 * (y 0).val = (k 0).val; omega

/-- Window 5 (W_r's) takes its [128, 128] array whole at every point. -/
theorem read5 (t : Fin cfg0.N) (A : S128x128.Idx → EReal) (y : S128x128.Idx) (k : S128x128.Idx)
    (h0 : (k 0).val = (y 0).val) (h1 : (k 1).val = (y 1).val) :
    (((cfg0.win 5).blk t).view.read (Elt Ideal) A : S128x128.Idx → EReal) y = A k := by
  obtain ⟨-, -, -, -, -, -, -, -, -, e0, e1, -⟩ := idx_facts t
  show A (((cfg0.win 5).blk t).view.emb y) = A k
  refine congrArg A (funext fun a => Fin.ext ?_)
  match a with
  | ⟨0, _⟩ => show win0_5.index t (0 : Fin 2) * 128 + 1 * (y 0).val = (k 0).val; omega
  | ⟨1, _⟩ => show win0_5.index t (1 : Fin 2) * 128 + 1 * (y 1).val = (k 1).val; omega

/-- Window 6 (b_r's) takes its [128] array whole at every point. -/
theorem read6 (t : Fin cfg0.N) (A : S128.Idx → EReal) (y : S128.Idx) (k : S128.Idx)
    (h0 : (k 0).val = (y 0).val) :
    (((cfg0.win 6).blk t).view.read (Elt Ideal) A : S128.Idx → EReal) y = A k := by
  obtain ⟨-, -, -, -, -, -, -, -, -, -, -, e0, -⟩ := idx_facts t
  show A (((cfg0.win 6).blk t).view.emb y) = A k
  refine congrArg A (funext fun a => Fin.ext ?_)
  match a with
  | ⟨0, _⟩ => show win0_6.index t (0 : Fin 1) * 128 + 1 * (y 0).val = (k 0).val; omega

/-! ## What one point writes -/

/-- With arbitrary arrays in the seven input windows' places: the body's result on their blocks at point t is
    the layer's output on the arrays, restricted to the point's rows. -/
theorem point_writes (t : Fin cfg0.N) (A0 : S50000x128.Idx → EReal) (A1 : S50000x1.Idx → EReal)
    (A2 : S50000x128.Idx → EReal) (A3 : S128x128.Idx → EReal) (A4 : S128.Idx → EReal)
    (A5 : S128x128.Idx → EReal) (A6 : S128.Idx → EReal) :
    (cfg0.win 7).cut (grid0.coords t)
        (out0_7 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal)
          (SageMean.layer (n := 50000) A0 (fun r => A1 (ix2 r (0 : Fin 1))) A2 A3 A4 A5 A6) := by
  unfold out0_7
  rw [View.canon_unit_zero zero2]
  simp only [View.ld_unit_zero (S := S5000x128) zero2, View.ld_unit_zero (S := S5000x1) zero2,
    View.ld_unit_zero (S := S128x128) zero2, View.ld_unit_zero (S := S128) zero1]
  obtain ⟨-, -, -, -, -, -, -, -, -, -, -, -, e71, -⟩ := idx_facts t
  funext j
  show k0_pay1 (F := Ideal) (((cfg0.win 1).blk t).view.read (Elt Ideal) A1) (((cfg0.win 0).blk t).view.read (Elt Ideal) A0)
      (((cfg0.win 3).blk t).view.read (Elt Ideal) A3) (((cfg0.win 2).blk t).view.read (Elt Ideal) A2)
      (((cfg0.win 5).blk t).view.read (Elt Ideal) A5) (((cfg0.win 4).blk t).view.read (Elt Ideal) A4)
      (((cfg0.win 6).blk t).view.read (Elt Ideal) A6) j
    = SageMean.layer (n := 50000) A0 (fun r => A1 (ix2 r (0 : Fin 1))) A2 A3 A4 A5 A6 (((cfg0.win 7).blk t).view.emb j)
  have hr : (((cfg0.win 7).blk t).view.emb j 0).val = win0_7.index t (0 : Fin 2) * 5000 + 1 * (j 0).val := rfl
  have hq : (((cfg0.win 7).blk t).view.emb j 1).val = win0_7.index t (1 : Fin 2) * 128 + 1 * (j 1).val := rfl
  refine (Body.stored_apply (((cfg0.win 1).blk t).view.read (Elt Ideal) A1) (((cfg0.win 0).blk t).view.read (Elt Ideal) A0)
      (((cfg0.win 3).blk t).view.read (Elt Ideal) A3) (((cfg0.win 2).blk t).view.read (Elt Ideal) A2)
      (((cfg0.win 5).blk t).view.read (Elt Ideal) A5) (((cfg0.win 4).blk t).view.read (Elt Ideal) A4)
      (((cfg0.win 6).blk t).view.read (Elt Ideal) A6) j).trans ?_
  unfold SageMean.layer
  refine SageMean.entry_congr (fun k => ?_) ?_ (fun k => ?_) (fun k => ?_) ?_ (fun k => ?_) ?_
  · exact read0 t A0 _ _ (by show (((cfg0.win 7).blk t).view.emb j 0).val = _ + (j 0).val; omega) rfl
  · exact read1 t A1 _ _ (by show (((cfg0.win 7).blk t).view.emb j 0).val = _ + (j 0).val; omega) rfl
  · exact read2 t A2 _ _ (by show (((cfg0.win 7).blk t).view.emb j 0).val = _ + (j 0).val; omega) rfl
  · exact read3 t A3 _ _ rfl (by show (((cfg0.win 7).blk t).view.emb j 1).val = (j 1).val; omega)
  · exact read4 t A4 _ _ (by show (((cfg0.win 7).blk t).view.emb j 1).val = (j 1).val; omega)
  · exact read5 t A5 _ _ rfl (by show (((cfg0.win 7).blk t).view.emb j 1).val = (j 1).val; omega)
  · exact read6 t A6 _ _ (by show (((cfg0.win 7).blk t).view.emb j 1).val = (j 1).val; omega)

/-! ## The whole array -/

/-- The arrays the seven input windows stage are the two the host prepared and five of the program's arguments. -/
theorem arr0 (c : Dev nD) : V m c (Pipeline.arrRef spec0 0) = V m c main_v18 := rfl
theorem arr1 (c : Dev nD) : V m c (Pipeline.arrRef spec0 1) = V m c main_v28 := rfl
theorem arr2 (c : Dev nD) : V m c (Pipeline.arrRef spec0 2) = V m c main_arg0 := rfl
theorem arr3 (c : Dev nD) : V m c (Pipeline.arrRef spec0 3) = V m c main_arg2 := rfl
theorem arr4 (c : Dev nD) : V m c (Pipeline.arrRef spec0 4) = V m c main_arg3 := rfl
theorem arr5 (c : Dev nD) : V m c (Pipeline.arrRef spec0 5) = V m c main_arg4 := rfl
theorem arr6 (c : Dev nD) : V m c (Pipeline.arrRef spec0 6) = V m c main_arg5 := rfl

/-- The layer's output on the arrays as the kernel finds them: the neighbour sums, the degree column read at
    (·, 0), the features, the weights and the biases. -/
def whole (c : Dev nD) : S50000x128.Idx → EReal :=
  SageMean.layer (n := 50000) (V m c main_v18 : S50000x128.Idx → EReal)
    (fun r => (V m c main_v28 : S50000x1.Idx → EReal) (ix2 r (0 : Fin 1)))
    (V m c main_arg0 : S50000x128.Idx → EReal) (V m c main_arg2 : S128x128.Idx → EReal)
    (V m c main_arg3 : S128.Idx → EReal) (V m c main_arg4 : S128x128.Idx → EReal)
    (V m c main_arg5 : S128.Idx → EReal)

/-- What point t writes back is its rows of `whole`. -/
theorem flushed_eq (c : Dev nD) (t : Fin cfg0.N) :
    (dats m 0 c).flushed 7 t = ((cfg0.win 7).blk t).view.read (Elt Ideal) (whole m c) := by
  rw [Cert.KernelIdeal.Value.flushed7]
  unfold iblk whole
  rw [arr0, arr1, arr2, arr3, arr4, arr5, arr6]
  exact point_writes t (V m c main_v18) (V m c main_v28) (V m c main_arg0) (V m c main_arg2) (V m c main_arg3)
    (V m c main_arg4) (V m c main_arg5)

/-- An index of the result is in point t's block iff each coordinate is in the block's range. -/
theorem mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v29).slice (win0_7.rect t)).set ↔ _
  rw [View.set_slice_whole, Rect.mem_set_unit]
  exact Iff.rfl

/-- Row r of the result lies in the block of the point whose block row is r / 5000. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

/-- After the run the result array is the layer's output on the arrays the kernel was launched on. -/
theorem final (c : Dev nD) : (dats m 0 c).arrAt 7 cfg0.N = whole m c :=
  (dats m 0 c).arrAt_eq_of_cover 7 (whole m c) (fun t _ => flushed_eq m c t) cover

end Cert.KernelIdeal.Blocks

end
-- ==== Proof.HostSide.lean ====
/-
  The two arrays the host prepares for the kernel: the neighbour sums and the in-degrees.

  From the edge list e (row 0 the sources, row 1 the destinations) and the features x the program gathers the
  feature row of every edge's source and adds it into the row of the edge's destination, and adds a 1 into the
  destination's entry of a zero vector.  Before it uses a row of the edge list as indices it replaces every
  negative entry v by v + 50000 (`wrap`).  The sums and degrees are kept here as functions of the destination
  indices actually used, so that the same two functions describe a program that wraps the destinations and
  one that does not.
-/
import proofs.«160981_j41807211659455_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-- Row 0 of the edge list: the source node of every edge. -/
def srcRow (e : IVec S2x600000 32) : IVec S600000 32 :=
  shapeCast S600000 (extractStridedSlice S1x600000 ![0, 0] e slices_S2x600000_S1x600000_0_0) shapeCasts_S1x600000_S600000

/-- Row 1 of the edge list: the destination node of every edge. -/
def dstRow (e : IVec S2x600000 32) : IVec S600000 32 :=
  shapeCast S600000 (extractStridedSlice S1x600000 ![1, 0] e slices_S2x600000_S1x600000_1_0) shapeCasts_S1x600000_S600000

/-- Negative indices counted from the end: v + 50000 where v < 0, v elsewhere. -/
def wrap (v : IVec S600000 32) : IVec S600000 32 :=
  select (cmpi .slt v (broadcastInDim S600000 ![] bcast_S_S600000 (constantI S_ 32 0#32)))
    (addi v (broadcastInDim S600000 ![] bcast_S_S600000 (constantI S_ 32 50000#32))) v

/-- The neighbour sums: into the zero array, row d(j) receives the feature row of edge j's (wrapped) source,
    for every edge j whose index d(j) names a row. -/
def neighbourSums (x : FVec F S50000x128 .f32) (e : IVec S2x600000 32) (d : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 x
      (broadcastInDim S600000x1 ![0] bcast_S600000_S600000x1_0 (wrap (srcRow e))))

/-- The in-degrees: into the zero vector, entry d(j) receives a 1 for every edge j whose index d(j) names an
    entry. -/
def inDegrees (d : IVec S600000 32) : FVec F S50000 .f32 :=
  Host.scatterAdd scatter_S50000_S600000x1_S600000_n_0_0_1
    (broadcastInDim S50000 ![] bcast_S_S50000 (constant S_ .f32 0x00000000#32))
    (broadcastInDim S600000x1 ![0] bcast_S600000_S600000x1_0 d)
    (broadcastInDim S600000 ![] bcast_S_S600000 (constant S_ .f32 0x3F800000#32))

variable (m : (ℓ : Loc nD τ sig) → Buf (Elt F) ℓ)

set_option maxRecDepth 8192 in
set_option maxHeartbeats 2000000 in
/-- The kernel's first operand is the neighbour sums at the wrapped destinations. -/
theorem sums_eq (c : Dev nD) :
    V m c main_v18 = neighbourSums (F := F) (m ((c : Thread nD τ).loc main_arg0)) (m ((c : Thread nD τ).loc main_arg1))
      (wrap (dstRow (m ((c : Thread nD τ).loc main_arg1)))) := by
  show StableHlo.after hostOps0 (fun b => m (c, b)) (Proc.devRef .tc main_v18) = _
  after_results_simp <;> rfl

set_option maxRecDepth 8192 in
set_option maxHeartbeats 2000000 in
/-- The kernel's second operand is the in-degrees at the wrapped destinations, as a [50000, 1] column. -/
theorem degrees_eq (c : Dev nD) :
    V m c main_v28 = shapeCast S50000x1 (inDegrees (F := F) (wrap (dstRow (m ((c : Thread nD τ).loc main_arg1)))))
      shapeCasts_S50000_S50000x1 := by
  show StableHlo.after hostOps0 (fun b => m (c, b)) (Proc.devRef .tc main_v28) = _
  after_results_simp <;> rfl

end Cert.KernelIdeal.HostSide

end
-- ==== Proof.KernelValue.lean ====
/-
  The kernel program's result as a function of its six arguments.

  After the run the result array is the layer's output on the arrays the host prepared (the blocks module).
  Those arrays are the neighbour sums and the in-degrees at the wrapped destinations, the degrees as a
  [50000, 1] column whose entry (r, 0) is entry r of the degree vector; the other five operands are arguments
  of the program, which no host operation writes.  Where wrapping leaves the destinations unchanged, the result
  is therefore the layer's output on the sums and degrees at the destinations themselves.
-/
import proofs.«160981_j41807211659455_2_alg».proof.Proof.Blocks
import proofs.«160981_j41807211659455_2_alg».proof.Proof.HostSide
import proofs.«160981_j41807211659455_2_alg».proof.Proof.LibKeepdims

noncomputable section

namespace Cert.KernelIdeal.KernelValue

open Cert.KernelIdeal Cert.KernelIdeal.Gen Idealize.ShloMosaic Idealize.ShloMosaic.TcCoe Idealize.SL.Sem
open Idealize.ShloMosaic.ValueIdx Cert.KernelIdeal.HostSide

variable (m : (ℓ : Loc nD τ sig) → Buf (Elt Ideal) ℓ) (ρ : Dev nD → PrngReg)

/-- The layer's output on device c's arguments: sums and degrees at the edge list's destinations as given. -/
def result (c : Dev nD) : S50000x128.Idx → EReal :=
  SageMean.layer (n := 50000)
    (neighbourSums (F := Ideal) (m ((c : Thread nD τ).loc main_arg0)) (m ((c : Thread nD τ).loc main_arg1))
      (dstRow (m ((c : Thread nD τ).loc main_arg1))))
    (fun r => inDegrees (F := Ideal) (dstRow (m ((c : Thread nD τ).loc main_arg1))) (ix1 r))
    (m ((c : Thread nD τ).loc main_arg0)) (m ((c : Thread nD τ).loc main_arg2)) (m ((c : Thread nD τ).loc main_arg3))
    (m ((c : Thread nD τ).loc main_arg4)) (m ((c : Thread nD τ).loc main_arg5))

/-- Equal data give equal outputs. -/
theorem layer_congr {n : ℕ} {S S' x x' : (⟨2, ![n, 128]⟩ : Shape).Idx → EReal} {cnt cnt' : Fin n → EReal}
    {Wl Wl' Wr Wr' : (⟨2, ![128, 128]⟩ : Shape).Idx → EReal} {bl bl' br br' : (⟨1, ![128]⟩ : Shape).Idx → EReal}
    (hS : S = S') (hc : cnt = cnt') (hx : x = x') (hWl : Wl = Wl') (hbl : bl = bl') (hWr : Wr = Wr') (hbr : br = br') :
    SageMean.layer S cnt x Wl bl Wr br = SageMean.layer S' cnt' x' Wl' bl' Wr' br' := by
  subst hS hc hx hWl hbl hWr hbr
  rfl

/-- Where wrapping changes no destination, the array the blocks cover is `result`: the sums and the degrees
    are then taken at the destinations as given, and entry (r, 0) of the degree column is entry r of the
    degree vector. -/
theorem whole_eq (c : Dev nD)
    (hd : wrap (dstRow (m ((c : Thread nD τ).loc main_arg1))) = dstRow (m ((c : Thread nD τ).loc main_arg1))) :
    Blocks.whole m c = result m c := by
  unfold Blocks.whole result
  refine layer_congr ?_ (funext fun r => ?_) (V_main_arg0 m c) (V_main_arg2 m c) (V_main_arg3 m c)
    (V_main_arg4 m c) (V_main_arg5 m c)
  · exact (sums_eq m c).trans (congrArg (neighbourSums (F := Ideal) (m ((c : Thread nD τ).loc main_arg0))
      (m ((c : Thread nD τ).loc main_arg1))) hd)
  · refine (congrFun (degrees_eq m c) (ix2 r (0 : Fin 1))).trans ?_
    rw [hd]
    exact Keepdims.shapeCast_a_a1_apply _ _ r 0

/-- The kernel program's run: it ends with the result array at `result` and its arguments unchanged. -/
theorem run (hd : ∀ c : Dev nD,
      wrap (dstRow (m ((c : Thread nD τ).loc main_arg1))) = dstRow (m ((c : Thread nD τ).loc main_arg1))) :
    θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans ((Blocks.final m c).trans (whole_eq m c (hd c))), (h c).2⟩)
    (Cert.KernelIdeal.Value.run_blocks m ρ)

end Cert.KernelIdeal.KernelValue

end
-- ==== Proof.EdgeDomain.lean ====
/-
  What the precondition says about the edge list, and what follows for the wrapped destinations.

  Beside the finiteness of the float inputs the precondition asks that every destination index (row 1 of the
  edge list) be nonnegative: the conjunction's last member is the all-reduction of the comparison
  `destination ≥ 0` (signed), so each of the 600000 comparisons holds.  A nonnegative index is not below zero,
  hence wrapping leaves every destination as it is.
-/
import proofs.«160981_j41807211659455_2_alg».proof.Pre_finite_inputs
import proofs.«160981_j41807211659455_2_alg».proof.Proof.Gen.Pre_finite_inputs
import proofs.«160981_j41807211659455_2_alg».proof.Proof.HostSide
import Idealize.ShloMosaic.Lib.ReduceAll
import Idealize.ShloMosaic.Lib.ValueIdx

noncomputable section

namespace Cert.EdgeDomain

open Idealize.ShloMosaic Cert.KernelIdeal.HostSide

/-- A scalar array has one index. -/
instance : Subsingleton Cert.Pre_finite_inputs.S_.Idx := ⟨fun _ _ => funext fun d => d.elim0⟩

variable {F : FTy → Type} [FloatOps F] [Cert.Pre_finite_inputs.Facts]

/-- Under the precondition every destination index is nonnegative (read signed). -/
theorem dst_nonneg (a0 : FVec F Cert.Pre_finite_inputs.S50000x128 .f32) (a1 : IVec Cert.Pre_finite_inputs.S2x600000 32)
    (a2 : FVec F Cert.Pre_finite_inputs.S128x128 .f32) (a3 : FVec F Cert.Pre_finite_inputs.S128 .f32)
    (a4 : FVec F Cert.Pre_finite_inputs.S128x128 .f32) (a5 : FVec F Cert.Pre_finite_inputs.S128 .f32)
    (h : Cert.Pre_finite_inputs.fn (F := F) a0 a1 a2 a3 a4 a5 = fun _ => 1#1) (i : Cert.KernelIdeal.S600000.Idx) :
    IntOp.cmpi .sge (dstRow a1 i) 0#32 = 1#1 := by
  have e := congrFun h ValueIdx.ix0
  dsimp only [Cert.Pre_finite_inputs.fn, Cert.Pre_finite_inputs.fn_part1] at e
  exact Host.reduce_andi_all _ _ _ _ _ (IntOp.andi_eq_one.1 e).2 i

/-- Wrapping does nothing to a vector of nonnegative indices. -/
theorem wrap_eq_self (d : IVec Cert.KernelIdeal.S600000 32) (h : ∀ i, IntOp.cmpi .sge (d i) 0#32 = 1#1) :
    wrap d = d := by
  funext i
  have hlt : ¬ IntOp.cmpi .slt (d i) 0#32 = 1#1 :=
    fun h2 => absurd (IntOp.cmpi_slt.1 h2) (not_lt.2 (IntOp.cmpi_sge.1 (h i)))
  exact if_neg hlt

end Cert.EdgeDomain

end
-- ==== Proof.RefLayer.lean ====
/-
  The reference computes the layer.

  Read entry by entry, the reference's result is: the maximum with zero of
  ((∑_k (sums(r,k) / max(degrees(r), 1)) · W_l(k,q) + b_l(q)) + ∑_k x(r,k) · W_r(k,q)) + b_r(q),
  where sums and degrees are its two scatter-additions.  The degree vector is spread along the columns through
  a [50000, 1] column, each bias along the rows through a [1, 128] row; at entry (r, q) these spreadings read
  entry r of the degrees and entry q of the bias.
-/
import proofs.«160981_j41807211659455_2_alg».proof.Proof.Gen.ReferenceIdeal.Read
import proofs.«160981_j41807211659455_2_alg».proof.Proof.Layer
import Idealize.ShloMosaic.Lib.ValueIdx

noncomputable section

namespace Cert.ReferenceIdeal.RefLayer

open Cert.ReferenceIdeal Cert.ReferenceIdeal.Gen Cert.ReferenceIdeal.Read Idealize.ShloMosaic
open Idealize.ShloMosaic.ValueIdx

/-- Entry (r, q) of the reference's result is the layer's entry (r, q) on the reference's neighbour sums and
    degrees, the features, the weights and the biases. -/
theorem result_at (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 50000) (q : Fin 128) :
    val_main_v32 (F := Ideal) x0 x1 x2 x3 x4 x5 (ix2 r q)
      = SageMean.entry (n := 50000) (val_main_v13 (F := Ideal) x0 x1) (fun r => val_main_v17 (F := Ideal) x1 (ix1 r))
          x0 x2 x3 x4 x5 r q := by
  have eL23 : ∀ k, lidx_main_v23 (ix2 r q) k = ix2 r k := fun k =>
    funext fun a => Fin.ext (by match a with | ⟨0, _⟩ => rfl | ⟨1, _⟩ => rfl)
  have eR23 : ∀ k, ridx_main_v23 (ix2 r q) k = ix2 k q := fun k =>
    funext fun a => Fin.ext (by match a with | ⟨0, _⟩ => rfl | ⟨1, _⟩ => rfl)
  have eL27 : ∀ k, lidx_main_v27 (ix2 r q) k = ix2 r k := fun k =>
    funext fun a => Fin.ext (by match a with | ⟨0, _⟩ => rfl | ⟨1, _⟩ => rfl)
  have eR27 : ∀ k, ridx_main_v27 (ix2 r q) k = ix2 k q := fun k =>
    funext fun a => Fin.ext (by match a with | ⟨0, _⟩ => rfl | ⟨1, _⟩ => rfl)
  have eCnt : ∀ k : Fin 128, idx_main_v20 (idx_main_v21 (ix2 r k)) = ix1 r := fun k =>
    funext fun a => Fin.ext (by match a with | ⟨0, _⟩ => rfl)
  have eBl : idx_main_v24 (idx_main_v25 (ix2 r q)) = ix1 q :=
    funext fun a => Fin.ext (by match a with | ⟨0, _⟩ => rfl)
  have eBr : idx_main_v29 (idx_main_v30 (ix2 r q)) = ix1 q :=
    funext fun a => Fin.ext (by match a with | ⟨0, _⟩ => rfl)
  rw [val_main_v32_apply, val_main_v31_apply, val_main_v28_apply, val_main_v26_apply, val_main_v23_apply,
    val_main_v27_apply, val_main_v25_apply, val_main_v24_apply, val_main_v30_apply, val_main_v29_apply,
    val_main_call0_v0_apply, val_main_call0_cst_apply, eBl, eBr]
  have s1 : ∑ k : Fin 128, val_main_v22 (F := Ideal) x0 x1 (lidx_main_v23 (ix2 r q) k) * x2 (ridx_main_v23 (ix2 r q) k)
      = ∑ k : Fin 128, Ideal.div (val_main_v13 (F := Ideal) x0 x1 (ix2 r k))
          (max (val_main_v17 (F := Ideal) x1 (ix1 r)) SageMean.one) * x2 (ix2 k q) :=
    Finset.sum_congr rfl fun k _ => by
      rw [eL23 k, eR23 k, val_main_v22_apply, val_main_v21_apply, val_main_v20_apply, val_main_v19_apply,
        val_main_v18_apply, val_main_cst_3_apply, eCnt k]
      rfl
  have s2 : ∑ k : Fin 128, x0 (lidx_main_v27 (ix2 r q) k) * x4 (ridx_main_v27 (ix2 r q) k)
      = ∑ k : Fin 128, x0 (ix2 r k) * x4 (ix2 k q) :=
    Finset.sum_congr rfl fun k _ => by rw [eL27 k, eR27 k]
  rw [s1, s2]
  rfl

/-- The reference's result is the layer's output on its neighbour sums, its degrees, the features, the
    weights and the biases. -/
theorem result_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v32 (F := Ideal) x0 x1 x2 x3 x4 x5
      = SageMean.layer (n := 50000) (val_main_v13 (F := Ideal) x0 x1) (fun r => val_main_v17 (F := Ideal) x1 (ix1 r))
          x0 x2 x3 x4 x5 :=
  funext fun i => by
    obtain ⟨r, q, rfl⟩ : ∃ (r : Fin 50000) (q : Fin 128), i = ix2 r q := ⟨i 0, i 1, eq_ix2 i⟩
    exact result_at x0 x1 x2 x3 x4 x5 r q

end Cert.ReferenceIdeal.RefLayer

end
-- ==== Proof.lean ====
/-
  A mean-aggregation graph layer: the kernel program and the reference compute the same array.

  Both programs receive node features x (50000 × 128), an edge list (2 × 600000: sources, destinations), two
  128 × 128 weight matrices and two bias vectors.  Both gather the feature row of every edge's source, add it
  into the row of the edge's destination and count the edges arriving at every node; with S the sums and
  cnt the counts the result is

      out(r, q) = max( ((∑_k S(r,k) / max(cnt(r), 1) · W_l(k,q) + b_l(q)) + ∑_k x(r,k) · W_r(k,q)) + b_r(q), 0 ).

  The kernel program does the gather and the two scatter-additions on the host and the rest in a kernel over
  ten blocks of 5000 rows; the reference does everything on the host.  On the extended reals the kernel's
  matrix products (operands narrowed to half precision, zero accumulator) and the reference's are the same
  sums, and the additions are grouped alike, so no law of arithmetic is used and the finiteness of the inputs
  is not needed.

  The one difference is in the indices: the kernel program counts a negative destination from the end
  (v + 50000) before scattering, the reference scatters at the destination as given, and a scatter drops an
  update whose index names no row.  The precondition asks the destinations to be nonnegative; then the two
  index vectors are equal and so are the sums and the counts.  (Sources are wrapped alike by both programs.)
-/
import proofs.«160981_j41807211659455_2_alg».proof.Defs
import proofs.«160981_j41807211659455_2_alg».proof.Proof.Gen.Kernel
import proofs.«160981_j41807211659455_2_alg».proof.Proof.Gen.Kernel.Skeleton
import proofs.«160981_j41807211659455_2_alg».proof.Proof.Gen.Kernel.Launch
import proofs.«160981_j41807211659455_2_alg».proof.Proof.Gen.Kernel.Points
import proofs.«160981_j41807211659455_2_alg».proof.Proof.Gen.Kernel.Frame
import proofs.«160981_j41807211659455_2_alg».proof.Proof.Gen.KernelIdeal
import proofs.«160981_j41807211659455_2_alg».proof.Proof.Gen.KernelIdeal.Skeleton
import proofs.«160981_j41807211659455_2_alg».proof.Proof.Gen.KernelIdeal.Launch
import proofs.«160981_j41807211659455_2_alg».proof.Proof.Gen.KernelIdeal.Points
import proofs.«160981_j41807211659455_2_alg».proof.Proof.Gen.KernelIdeal.Frame
import proofs.«160981_j41807211659455_2_alg».proof.Proof.Gen.ReferenceIdeal
import proofs.«160981_j41807211659455_2_alg».proof.Proof.Gen.Pre_finite_inputs
import proofs.«160981_j41807211659455_2_alg».proof.Proof.Gen.KernelIdeal.Value
import proofs.«160981_j41807211659455_2_alg».proof.Proof.Gen.ReferenceIdeal.Run
import proofs.«160981_j41807211659455_2_alg».proof.Proof.Gen.ReferenceIdeal.Read
import proofs.«160981_j41807211659455_2_alg».proof.Proof.KernelValue
import proofs.«160981_j41807211659455_2_alg».proof.Proof.EdgeDomain
import proofs.«160981_j41807211659455_2_alg».proof.Proof.RefLayer
import Idealize.ShloMosaic.Adequacy
import Idealize.ShloMosaic.Init

noncomputable section

namespace Cert.Proof

open Idealize.ShloMosaic Idealize.ShloMosaic.TcCoe Idealize.SL.Sem
open Idealize.ShloMosaic.ValueIdx

/-! ## The two programs' scatter-additions are the same functions -/

/-- The reference's neighbour sums are the kernel program's function at the destinations as given. -/
theorem sums_same (x0 : FVec Ideal Cert.KernelIdeal.S50000x128 .f32) (x1 : IVec Cert.KernelIdeal.S2x600000 32) :
    Cert.ReferenceIdeal.Read.val_main_v13 (F := Ideal) x0 x1
      = Cert.KernelIdeal.HostSide.neighbourSums (F := Ideal) x0 x1 (Cert.KernelIdeal.HostSide.dstRow x1) := rfl

/-- The reference's in-degrees are the kernel program's function at the destinations as given. -/
theorem degrees_same (x1 : IVec Cert.KernelIdeal.S2x600000 32) :
    Cert.ReferenceIdeal.Read.val_main_v17 (F := Ideal) x1
      = Cert.KernelIdeal.HostSide.inDegrees (F := Ideal) (Cert.KernelIdeal.HostSide.dstRow x1) := rfl

/-! ## The claims -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the layer's output on the same sums, counts, features, weights and biases: the
    kernel program because under the precondition wrapping changes no destination, the reference by its
    own text. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd : ∀ c : Dev Cert.KernelIdeal.nD,
      Cert.KernelIdeal.HostSide.wrap (Cert.KernelIdeal.HostSide.dstRow (m ((c : Thread Cert.KernelIdeal.nD Cert.KernelIdeal.τ).loc Cert.KernelIdeal.main_arg1)))
        = Cert.KernelIdeal.HostSide.dstRow (m ((c : Thread Cert.KernelIdeal.nD Cert.KernelIdeal.τ).loc Cert.KernelIdeal.main_arg1)) :=
    fun c => Cert.EdgeDomain.wrap_eq_self _ (Cert.EdgeDomain.dst_nonneg _ _ _ _ _ _ (hpre c))
  refine ⟨fun c => Cert.KernelIdeal.KernelValue.result m c, Cert.KernelIdeal.KernelValue.run m ρ hd, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefLayer.result_eq,
    (hagree c).1, (hagree c).2.1, (hagree c).2.2.1, (hagree c).2.2.2.1, (hagree c).2.2.2.2.1, (hagree c).2.2.2.2.2,
    sums_same, degrees_same]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
